-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x64x64 : Shape := ⟨4, ![32, 512, 64, 64]⟩
abbrev S_ : Shape := ⟨0, ![]⟩

class Facts : Prop where
  bcast_S_S32x512x64x64 : S_.BroadcastsInDim S32x512x64x64 (![] : Fin 0 → Fin S32x512x64x64.rank)
  reducesTo_S32x512x64x64_S_d0_1_2_3 : S32x512x64x64.ReducesTo [0, 1, 2, 3] S_
  h_S_ : 0 < S_.numel

variable [Facts]

def fn {F : FTy → Type} [FloatOps F] (main_arg0 : FVec F S32x512x64x64 .f32) : IVec S_ 1 :=
  let main_v0 : FVec F S32x512x64x64 .f32 := Host.absf main_arg0
  let main_cst : FVec F S_ .f32 := constant S_ .f32 0x7F800000#32
  let main_v1 : FVec F S32x512x64x64 .f32 := broadcastInDim S32x512x64x64 ![] bcast_S_S32x512x64x64 main_cst
  let main_v2 : IVec S32x512x64x64 1 := cmpf .olt main_v0 main_v1
  let main_c : IVec S_ 1 := constantI S_ 1 1#1
  let main_v3 : IVec S_ 1 := (fun x v => Host.reduce IntOp.andi x v reducesTo_S32x512x64x64_S_d0_1_2_3 h_S_) main_v2 main_c
  main_v3
-- ==== Kernel.lean ====
abbrev S32x512x64x64 : Shape := ⟨4, ![32, 512, 64, 64]⟩
abbrev S32x512 : Shape := ⟨2, ![32, 512]⟩
abbrev S8x128x16x64 : Shape := ⟨4, ![8, 128, 16, 64]⟩
abbrev S8x128 : Shape := ⟨2, ![8, 128]⟩
abbrev S8x128x16 : Shape := ⟨3, ![8, 128, 16]⟩
abbrev S32x1024 : Shape := ⟨2, ![32, 1024]⟩

abbrev nBuf : Space → Nat
  | .hbm => 4
  | .vmem => 8
  | .smem => 0
  | _ => 0

abbrev bufTy : (tb : Table) → Fin (tcTables nBuf tb) → BufTy
  | .hbm, ⟨0, _⟩ => ⟨S32x512x64x64, .f32⟩
  | .hbm, ⟨1, _⟩ => ⟨S32x512, .f32⟩
  | .hbm, ⟨2, _⟩ => ⟨S32x512, .f32⟩
  | .hbm, ⟨3, _⟩ => ⟨S32x1024, .f32⟩
  | .local _ .vmem, ⟨0, _⟩ => ⟨S8x128x16x64, .f32⟩
  | .local _ .vmem, ⟨1, _⟩ => ⟨S8x128x16x64, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S32x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_15 : BitVec 32 := 0#32
  let v21 : BitVec 1 := Scalar.cmpi .ne v20 c0_i32_15
  v21

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x128x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x128x16x64_S8x128x16x64_0_0_0_0 : ∀ a, (![0, 0, 0, 0] : Fin 4 → Nat) a + S8x128x16x64.size a ≤ S8x128x16x64.size a
  h_S8x128x16x64 : 0 < S8x128x16x64.numel
  reduces_S8x128x16x64_S8x128x16 : S8x128x16x64.Reduces [3] S8x128x16
  reduces_S8x128x16_S8x128 : S8x128x16.Reduces [2] S8x128
  concatenates_S32x512_S32x512_S32x1024_d1 : Shape.Concatenates [S32x512, S32x512] S32x1024 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x16x64.size a ≤ S32x512x64x64.size a
  hwx0_0 : ∀ i : grid0.Coords, EltTy.bits .f32 = 32 ∨ (Rect.block (s := S32x512x64x64) S8x128x16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x512.size a
  hwx0_1 : ∀ i : grid0.Coords, EltTy.bits .f32 = 32 ∨ (Rect.block (s := S32x512) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S32x512.size a
  hwx0_2 : ∀ i : grid0.Coords, EltTy.bits .f32 = 32 ∨ (Rect.block (s := S32x512) S8x128.size (cc0_transform_2 i) (hinb0_2 i)).WholeWords (EltTy.packing .f32)

variable [Facts₀]

abbrev win0_0 : Pipeline.Window sig grid0 :=
  Pipeline.Window.ofSpec (Memref.whole main_arg0) S8x128x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x512x64x64 : Shape := ⟨4, ![32, 512, 64, 64]⟩
abbrev S_ : Shape := ⟨0, ![]⟩
abbrev S32x512 : Shape := ⟨2, ![32, 512]⟩
abbrev S32x512x1x1 : Shape := ⟨4, ![32, 512, 1, 1]⟩
abbrev S32x1024 : Shape := ⟨2, ![32, 1024]⟩

abbrev nBuf : Space → Nat
  | .hbm => 31
  | .vmem => 0
  | .smem => 0
  | _ => 0

abbrev bufTy : (tb : Table) → Fin (tcTables nBuf tb) → BufTy
  | .hbm, ⟨0, _⟩ => ⟨S32x512x64x64, .f32⟩
  | .hbm, ⟨1, _⟩ => ⟨S_, .f32⟩
  | .hbm, ⟨2, _⟩ => ⟨S32x512, .f32⟩
  | .hbm, ⟨3, _⟩ => ⟨S_, .f32⟩
  | .hbm, ⟨4, _⟩ => ⟨S32x512, .f32⟩
  | .hbm, ⟨5, _⟩ => ⟨S32x512, .f32⟩
  | .hbm, ⟨6, _⟩ => ⟨S_, .i32⟩
  | .hbm, ⟨7, _⟩ => ⟨S_, .f32⟩
  | .hbm, ⟨8, _⟩ => ⟨S32x512, .f32⟩
  | .hbm, ⟨9, _⟩ => ⟨S32x512x1x1, .f32⟩
  | .hbm, ⟨10, _⟩ => ⟨S_, .f32⟩
  | .hbm, ⟨11, _⟩ => ⟨S32x512x1x1, .f32⟩
  | .hbm, ⟨12, _⟩ => ⟨S32x512x1x1, .f32⟩
  | .hbm, ⟨13, _⟩ => ⟨S32x512x64x64, .f32⟩
  | .hbm, ⟨14, _⟩ => ⟨S32x512x64x64, .f32⟩
  | .hbm, ⟨15, _⟩ => ⟨S32x512x64x64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S32x512, .f32⟩
  | .hbm, ⟨21, _⟩ => ⟨S32x512, .f32⟩
  | .hbm, ⟨22, _⟩ => ⟨S32x512, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S_, .f32⟩
  | .hbm, ⟨27, _⟩ => ⟨S32x512, .f32⟩
  | .hbm, ⟨28, _⟩ => ⟨S32x512, .f32⟩
  | .hbm, ⟨29, _⟩ => ⟨S32x512, .f32⟩
  | .hbm, ⟨30, _⟩ => ⟨S32x1024, .f32⟩
  | _, _ => ⟨S32x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_cst_0 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_cst_1 : Ref sig .tc := ⟨.hbm, 17, rfl⟩
abbrev main_call0_call0_v8 : Ref sig .tc := ⟨.hbm, 18, rfl⟩
abbrev main_call0_call0_cst_2 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_call0_cst_3 : Ref sig .tc := ⟨.hbm, 23, rfl⟩
abbrev main_call0_call0_v12 : Ref sig .tc := ⟨.hbm, 24, rfl⟩
abbrev main_call0_call0_cst_4 : Ref sig .tc := ⟨.hbm, 25, rfl⟩
abbrev main_call0_call0_call0_v0 : Ref sig .tc := ⟨.hbm, 26, rfl⟩
abbrev main_call0_call0_call0_v1 : Ref sig .tc := ⟨.hbm, 27, rfl⟩
abbrev main_call0_v0 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]

class Facts₀ : Prop where
  reducesTo_S32x512x64x64_S32x512_d2_3 : S32x512x64x64.ReducesTo [2, 3] S32x512
  h_S_ : 0 < S_.numel
  bcast_S_S32x512 : S_.BroadcastsInDim S32x512 (![] : Fin 0 → Fin S32x512.rank)
  bcast_S32x512_S32x512x1x1_0_1 : S32x512.BroadcastsInDim S32x512x1x1 (![0, 1] : Fin 2 → Fin S32x512x1x1.rank)
  bcast_S_S32x512x1x1 : S_.BroadcastsInDim S32x512x1x1 (![] : Fin 0 → Fin S32x512x1x1.rank)
  bcast_S32x512x1x1_S32x512x64x64_0_1_2_3 : S32x512x1x1.BroadcastsInDim S32x512x64x64 (![0, 1, 2, 3] : Fin 4 → Fin S32x512x64x64.rank)
  concatenates_S32x512_S32x512_S32x1024_d1 : Shape.Concatenates [S32x512, S32x512] S32x1024 1

variable [Facts₀]

class Facts : Prop extends Facts₀ where

variable [Facts]
-- ==== Proof.KPieces.lean ====
/-
  What one execution of the kernel body leaves behind, as values.  The body keeps two accumulators, each an [8, 128]
  block: the running sum of the input block's entries over its last two axes, and the running sum of their squares.
  At the first step along the reduction axis it first clears both, so it leaves  0 + (block sums);  at every later step
  it leaves  (what the step before left) + (block sums);  and at the last step it moreover writes the two results: the
  mean  s / 4096  and the standard deviation  sqrt (max ((ss - s * s / 4096) / 4095, 0))  of the accumulators s, ss it
  has just updated.  Each statement below says one buffer's contents after the body is one of the body's pure terms
  applied to the input block and to the accumulators the step found.
-/
import proofs.«125075_j13494787244486_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KValue

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- First step: the sum accumulator is cleared and then holds zero plus the block sums. -/
theorem sout_A_0 (c : Dev nD) (i : grid0.Coords) (a3 : Memref sig .tc .vmem S8x128x16x64 .f32) (h3 : a3.IsWhole)
    (a4 : Memref sig .tc .vmem S8x128 .f32) (h4 : a4.IsWhole) (a5 : Memref sig .tc .vmem S8x128 .f32) (h5 : a5.IsWhole)
    (a6 : Memref sig .tc .vmem S8x128 .f32) (h6 : a6.IsWhole) (a7 : Memref sig .tc .vmem S8x128 .f32) (h7 : a7.IsWhole)
    (hc0 : cond0_0 i) (hc1 : ¬cond0_1 i) (x0 : Vec F S8x128x16x64 .f32) :
    sout0_A_0 c i a3 h3 a4 h4 a5 h5 a6 h6 a7 h7 hc0 hc1 x0 = k0_pay3 x0 k0_pay1 := by
  unfold sout0_A_0
  rw [View.read_writes_eq_canon _ _ _ (scover0_A_0 c i a3 h3 a4 h4 a5 h5 a6 h6 a7 h7 hc0 hc1 x0)]
  unfold kernelRun0_A
  dsimp only
  sl_unfold_words
  rw [View.canon_cons_unit_zero (S := S8x128) hz2, View.readCov_unit_zero (S := S8x128) _ hz2]
  simp only [View.readAt_eq_ld, h3.read_unread, h6.read_unread, h7.read_unread, View.ld_unit_zero (S := S8x128) hz2,
    View.ld_unit_zero (S := S8x128x16x64) hz4, View.readCov_unit_zero (S := S8x128) a6.view hz2,
    View.readCov_unit_zero (S := S8x128) a7.view hz2]

/-- First step: the sum-of-squares accumulator is cleared and then holds zero plus the block sums of squares. -/
theorem sout_A_1 (c : Dev nD) (i : grid0.Coords) (a3 : Memref sig .tc .vmem S8x128x16x64 .f32) (h3 : a3.IsWhole)
    (a4 : Memref sig .tc .vmem S8x128 .f32) (h4 : a4.IsWhole) (a5 : Memref sig .tc .vmem S8x128 .f32) (h5 : a5.IsWhole)
    (a6 : Memref sig .tc .vmem S8x128 .f32) (h6 : a6.IsWhole) (a7 : Memref sig .tc .vmem S8x128 .f32) (h7 : a7.IsWhole)
    (hc0 : cond0_0 i) (hc1 : ¬cond0_1 i) (x0 : Vec F S8x128x16x64 .f32) :
    sout0_A_1 c i a3 h3 a4 h4 a5 h5 a6 h6 a7 h7 hc0 hc1 x0 = k0_pay4 x0 k0_pay2 := by
  unfold sout0_A_1
  rw [View.read_writes_eq_canon _ _ _ (scover0_A_1 c i a3 h3 a4 h4 a5 h5 a6 h6 a7 h7 hc0 hc1 x0)]
  unfold kernelRun0_A
  dsimp only
  sl_unfold_words
  rw [View.canon_cons_unit_zero (S := S8x128) hz2, View.readCov_unit_zero (S := S8x128) _ hz2]
  simp only [View.readAt_eq_ld, h3.read_unread, h6.read_unread, h7.read_unread, View.ld_unit_zero (S := S8x128) hz2,
    View.ld_unit_zero (S := S8x128x16x64) hz4, View.readCov_unit_zero (S := S8x128) a6.view hz2,
    View.readCov_unit_zero (S := S8x128) a7.view hz2]

/-- A middle step adds the block sums to the sum accumulator. -/
theorem sout_B_0 (c : Dev nD) (i : grid0.Coords) (a3 : Memref sig .tc .vmem S8x128x16x64 .f32) (h3 : a3.IsWhole)
    (a4 : Memref sig .tc .vmem S8x128 .f32) (h4 : a4.IsWhole) (a5 : Memref sig .tc .vmem S8x128 .f32) (h5 : a5.IsWhole)
    (a6 : Memref sig .tc .vmem S8x128 .f32) (h6 : a6.IsWhole) (a7 : Memref sig .tc .vmem S8x128 .f32) (h7 : a7.IsWhole)
    (hc0 : ¬cond0_0 i) (hc1 : ¬cond0_1 i) (x0 : Vec F S8x128x16x64 .f32) (xs0 xs1 : Vec F S8x128 .f32) :
    sout0_B_0 c i a3 h3 a4 h4 a5 h5 a6 h6 a7 h7 hc0 hc1 x0 xs0 xs1 = k0_pay3 x0 xs0 := by
  unfold sout0_B_0
  rw [View.read_writes_eq_canon _ _ _ (scover0_B_0 c i a3 h3 a4 h4 a5 h5 a6 h6 a7 h7 hc0 hc1 x0 xs0 xs1)]
  unfold kernelRun0_B
  dsimp only
  sl_unfold_words
  rw [View.canon_unit_zero hz2]
  simp only [View.readAt_eq_ld, h3.read_unread, h6.read_unread, h7.read_unread, View.ld_unit_zero (S := S8x128) hz2,
    View.ld_unit_zero (S := S8x128x16x64) hz4, View.readCov_unit_zero (S := S8x128) a6.view hz2,
    View.readCov_unit_zero (S := S8x128) a7.view hz2]

/-- A middle step adds the block sums of squares to the sum-of-squares accumulator. -/
theorem sout_B_1 (c : Dev nD) (i : grid0.Coords) (a3 : Memref sig .tc .vmem S8x128x16x64 .f32) (h3 : a3.IsWhole)
    (a4 : Memref sig .tc .vmem S8x128 .f32) (h4 : a4.IsWhole) (a5 : Memref sig .tc .vmem S8x128 .f32) (h5 : a5.IsWhole)
    (a6 : Memref sig .tc .vmem S8x128 .f32) (h6 : a6.IsWhole) (a7 : Memref sig .tc .vmem S8x128 .f32) (h7 : a7.IsWhole)
    (hc0 : ¬cond0_0 i) (hc1 : ¬cond0_1 i) (x0 : Vec F S8x128x16x64 .f32) (xs0 xs1 : Vec F S8x128 .f32) :
    sout0_B_1 c i a3 h3 a4 h4 a5 h5 a6 h6 a7 h7 hc0 hc1 x0 xs0 xs1 = k0_pay4 x0 xs1 := by
  unfold sout0_B_1
  rw [View.read_writes_eq_canon _ _ _ (scover0_B_1 c i a3 h3 a4 h4 a5 h5 a6 h6 a7 h7 hc0 hc1 x0 xs0 xs1)]
  unfold kernelRun0_B
  dsimp only
  sl_unfold_words
  rw [View.canon_unit_zero hz2]
  simp only [View.readAt_eq_ld, h3.read_unread, h6.read_unread, h7.read_unread, View.ld_unit_zero (S := S8x128) hz2,
    View.ld_unit_zero (S := S8x128x16x64) hz4, View.readCov_unit_zero (S := S8x128) a6.view hz2,
    View.readCov_unit_zero (S := S8x128) a7.view hz2]

/-- The last step adds the block sums to the sum accumulator. -/
theorem sout_C_0 (c : Dev nD) (i : grid0.Coords) (a3 : Memref sig .tc .vmem S8x128x16x64 .f32) (h3 : a3.IsWhole)
    (a4 : Memref sig .tc .vmem S8x128 .f32) (h4 : a4.IsWhole) (a5 : Memref sig .tc .vmem S8x128 .f32) (h5 : a5.IsWhole)
    (a6 : Memref sig .tc .vmem S8x128 .f32) (h6 : a6.IsWhole) (a7 : Memref sig .tc .vmem S8x128 .f32) (h7 : a7.IsWhole)
    (hc0 : ¬cond0_0 i) (hc1 : cond0_1 i) (x0 : Vec F S8x128x16x64 .f32) (xs0 xs1 : Vec F S8x128 .f32) :
    sout0_C_0 c i a3 h3 a4 h4 a5 h5 a6 h6 a7 h7 hc0 hc1 x0 xs0 xs1 = k0_pay3 x0 xs0 := by
  unfold sout0_C_0
  rw [View.read_writes_eq_canon _ _ _ (scover0_C_0 c i a3 h3 a4 h4 a5 h5 a6 h6 a7 h7 hc0 hc1 x0 xs0 xs1)]
  unfold kernelRun0_C
  dsimp only
  sl_unfold_words
  rw [View.canon_unit_zero hz2]
  simp only [View.readAt_eq_ld, h3.read_unread, h6.read_unread, h7.read_unread, View.ld_unit_zero (S := S8x128) hz2,
    View.ld_unit_zero (S := S8x128x16x64) hz4, View.readCov_unit_zero (S := S8x128) a6.view hz2,
    View.readCov_unit_zero (S := S8x128) a7.view hz2]

/-- The last step adds the block sums of squares to the sum-of-squares accumulator. -/
theorem sout_C_1 (c : Dev nD) (i : grid0.Coords) (a3 : Memref sig .tc .vmem S8x128x16x64 .f32) (h3 : a3.IsWhole)
    (a4 : Memref sig .tc .vmem S8x128 .f32) (h4 : a4.IsWhole) (a5 : Memref sig .tc .vmem S8x128 .f32) (h5 : a5.IsWhole)
    (a6 : Memref sig .tc .vmem S8x128 .f32) (h6 : a6.IsWhole) (a7 : Memref sig .tc .vmem S8x128 .f32) (h7 : a7.IsWhole)
    (hc0 : ¬cond0_0 i) (hc1 : cond0_1 i) (x0 : Vec F S8x128x16x64 .f32) (xs0 xs1 : Vec F S8x128 .f32) :
    sout0_C_1 c i a3 h3 a4 h4 a5 h5 a6 h6 a7 h7 hc0 hc1 x0 xs0 xs1 = k0_pay4 x0 xs1 := by
  unfold sout0_C_1
  rw [View.read_writes_eq_canon _ _ _ (scover0_C_1 c i a3 h3 a4 h4 a5 h5 a6 h6 a7 h7 hc0 hc1 x0 xs0 xs1)]
  unfold kernelRun0_C
  dsimp only
  sl_unfold_words
  rw [View.canon_unit_zero hz2]
  simp only [View.readAt_eq_ld, h3.read_unread, h6.read_unread, h7.read_unread, View.ld_unit_zero (S := S8x128) hz2,
    View.ld_unit_zero (S := S8x128x16x64) hz4, View.readCov_unit_zero (S := S8x128) a6.view hz2,
    View.readCov_unit_zero (S := S8x128) a7.view hz2]

/-- The last step writes the mean of the updated sum accumulator. -/
theorem out_C_1 (c : Dev nD) (i : grid0.Coords) (a3 : Memref sig .tc .vmem S8x128x16x64 .f32) (h3 : a3.IsWhole)
    (a4 : Memref sig .tc .vmem S8x128 .f32) (h4 : a4.IsWhole) (a5 : Memref sig .tc .vmem S8x128 .f32) (h5 : a5.IsWhole)
    (a6 : Memref sig .tc .vmem S8x128 .f32) (h6 : a6.IsWhole) (a7 : Memref sig .tc .vmem S8x128 .f32) (h7 : a7.IsWhole)
    (hc0 : ¬cond0_0 i) (hc1 : cond0_1 i) (x0 : Vec F S8x128x16x64 .f32) (xs0 xs1 : Vec F S8x128 .f32) :
    out0_C_1 c i a3 h3 a4 h4 a5 h5 a6 h6 a7 h7 hc0 hc1 x0 xs0 xs1 = k0_pay5 (k0_pay3 x0 xs0) := by
  unfold out0_C_1
  rw [View.read_writes_eq_canon _ _ _ (cover0_C_1 c i a3 h3 a4 h4 a5 h5 a6 h6 a7 h7 hc0 hc1 x0 xs0 xs1)]
  unfold kernelRun0_C
  dsimp only
  sl_unfold_words
  rw [View.canon_unit_zero hz2]
  simp only [View.readAt_eq_ld, h3.read_unread, h6.read_unread, h7.read_unread, View.ld_unit_zero (S := S8x128) hz2,
    View.ld_unit_zero (S := S8x128x16x64) hz4, View.readCov_unit_zero (S := S8x128) a6.view hz2,
    View.readCov_unit_zero (S := S8x128) a7.view hz2]

/-- The last step writes the standard deviation from the two updated accumulators. -/
theorem out_C_2 (c : Dev nD) (i : grid0.Coords) (a3 : Memref sig .tc .vmem S8x128x16x64 .f32) (h3 : a3.IsWhole)
    (a4 : Memref sig .tc .vmem S8x128 .f32) (h4 : a4.IsWhole) (a5 : Memref sig .tc .vmem S8x128 .f32) (h5 : a5.IsWhole)
    (a6 : Memref sig .tc .vmem S8x128 .f32) (h6 : a6.IsWhole) (a7 : Memref sig .tc .vmem S8x128 .f32) (h7 : a7.IsWhole)
    (hc0 : ¬cond0_0 i) (hc1 : cond0_1 i) (x0 : Vec F S8x128x16x64 .f32) (xs0 xs1 : Vec F S8x128 .f32) :
    out0_C_2 c i a3 h3 a4 h4 a5 h5 a6 h6 a7 h7 hc0 hc1 x0 xs0 xs1 = k0_pay6 (k0_pay3 x0 xs0) (k0_pay4 x0 xs1) := by
  unfold out0_C_2
  rw [View.read_writes_eq_canon _ _ _ (cover0_C_2 c i a3 h3 a4 h4 a5 h5 a6 h6 a7 h7 hc0 hc1 x0 xs0 xs1)]
  unfold kernelRun0_C
  dsimp only
  sl_unfold_words
  rw [View.canon_unit_zero hz2]
  simp only [View.readAt_eq_ld, h3.read_unread, h6.read_unread, h7.read_unread, View.ld_unit_zero (S := S8x128) hz2,
    View.ld_unit_zero (S := S8x128x16x64) hz4, View.readCov_unit_zero (S := S8x128) a6.view hz2,
    View.readCov_unit_zero (S := S8x128) a7.view hz2]

end Cert.KernelIdeal.KValue

end
-- ==== Proof.Spec.lean ====
/-
  The two results as functions of the input array, over the extended reals.  For x of shape [32, 512, 64, 64] and
  a pair (b, c): `total` is the sum of the 64 x 64 entries x[b, c, ., .], `totalSq` the sum of their squares,
  `mean` is total / 4096.  The variance is written in the two arrangements that meet in this certificate:
  `varK` = max ((totalSq - total * total / 4096) / 4095, 0)   (moments accumulated, then combined), and
  `varR` = (sum of (x - mean)^2) / (4096 - 1)                  (deviations from the mean, squared and summed).
  On finite entries they are equal (Bridge.lean): the second expands to the first, and a sum of squares over a
  positive number is nonnegative, so the maximum with zero changes nothing.  The standard deviation is the square
  root of the variance.  The result array [32, 1024] lists the 512 means, then the 512 standard deviations.
-/
import Idealize.ShloMosaic.PureOps.Ideal
import Idealize.ShloMosaic.Lib.ValueIdx

noncomputable section

namespace Cert.Moments

open Idealize.ShloMosaic Idealize.ShloMosaic.ValueIdx

abbrev SX : Shape := ⟨4, ![32, 512, 64, 64]⟩
abbrev SM : Shape := ⟨2, ![32, 512]⟩

/-- The literals 4096.0, 4095.0 and 0.0 as the programs spell them. -/
abbrev c4096 : EReal := Ideal.ofBits .f32 0x45800000#32
abbrev c4095 : EReal := Ideal.ofBits .f32 0x457FF000#32
abbrev c0 : EReal := Ideal.ofBits .f32 0x00000000#32

/-- The sum of x[b, c, ., .]. -/
def total (x : SX.Idx → EReal) (b : Fin 32) (c : Fin 512) : EReal :=
  ∑ h : Fin 64, ∑ w : Fin 64, x (ix4 b c h w)

/-- The sum of the squares of x[b, c, ., .]. -/
def totalSq (x : SX.Idx → EReal) (b : Fin 32) (c : Fin 512) : EReal :=
  ∑ h : Fin 64, ∑ w : Fin 64, x (ix4 b c h w) * x (ix4 b c h w)

/-- The mean of x[b, c, ., .]. -/
def mean (x : SX.Idx → EReal) (b : Fin 32) (c : Fin 512) : EReal :=
  Ideal.div (total x b c) c4096

/-- The unbiased variance from the two moments, clamped at zero. -/
def varK (x : SX.Idx → EReal) (b : Fin 32) (c : Fin 512) : EReal :=
  max (Ideal.div (totalSq x b c - Ideal.div (total x b c * total x b c) c4096) c4095) c0

/-- The sum of squared deviations from the mean. -/
def devSq (x : SX.Idx → EReal) (b : Fin 32) (c : Fin 512) : EReal :=
  ∑ h : Fin 64, ∑ w : Fin 64, (x (ix4 b c h w) - mean x b c) * (x (ix4 b c h w) - mean x b c)

/-- The unbiased variance from the deviations; the divisor is 4096 minus the integer 1 read as a float. -/
def varR (x : SX.Idx → EReal) (b : Fin 32) (c : Fin 512) : EReal :=
  Ideal.div (devSq x b c) (c4096 - (((1#32 : BitVec 32).toInt : ℝ) : EReal))

/-- The array of means. -/
def meanArr (x : SX.Idx → EReal) : SM.Idx → EReal := fun j => mean x (j 0) (j 1)

/-- The array of standard deviations, variance in the first arrangement. -/
def stdKArr (x : SX.Idx → EReal) : SM.Idx → EReal := fun j => Ideal.sqrt (varK x (j 0) (j 1))

/-- The array of standard deviations, variance in the second arrangement. -/
def stdRArr (x : SX.Idx → EReal) : SM.Idx → EReal := fun j => Ideal.sqrt (varR x (j 0) (j 1))

end Cert.Moments

end
-- ==== Proof.KPay.lean ====
/-
  The body's pure terms read entry by entry on the extended reals.  For an input block x0 of shape [8, 128, 16, 64]
  and a pair (p, q): reducing the last axis and then the third leaves, at (p, q), the sum of the 16 x 64 entries
  x0[p, q, ., .] (`blockSum`).  So the accumulator updates are  acc + blockSum x0  and  acc + blockSum (x0 * x0),
  the mean is  s / 4096  and the standard deviation  sqrt (max ((ss - s * s / 4096) / 4095, 0)),  entry by entry.
-/
import proofs.«125075_j13494787244486_2_alg».proof.Proof.Gen.KernelIdeal.Skeleton
import proofs.«125075_j13494787244486_2_alg».proof.Proof.Spec
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.KValue

open Cert.KernelIdeal Cert.KernelIdeal.Gen Cert.Moments

/-- The sum of the entries x0[p, q, ., .] of a block. -/
def blockSum (x0 : FVec Ideal S8x128x16x64 .f32) (p : Fin 8) (q : Fin 128) : EReal :=
  ∑ hi : Fin 16, ∑ w : Fin 64, x0 (ix4 p q hi w)

/-- Putting back the reduced third coordinate. -/
theorem lift_hi (h : S8x128x16.Reduces [2] S8x128) (p : Fin 8) (q : Fin 128) (hi : Fin 16) :
    h.lift (ix2 p q) hi = ix3 p q hi := by
  funext a
  apply Fin.ext
  match a with
  | ⟨0, _⟩ => rfl
  | ⟨1, _⟩ => rfl
  | ⟨2, _⟩ => rfl

/-- Putting back the reduced last coordinate. -/
theorem lift_w (h : S8x128x16x64.Reduces [3] S8x128x16) (p : Fin 8) (q : Fin 128) (hi : Fin 16) (w : Fin 64) :
    h.lift (ix3 p q hi) w = ix4 p q hi w := by
  funext a
  apply Fin.ext
  match a with
  | ⟨0, _⟩ => rfl
  | ⟨1, _⟩ => rfl
  | ⟨2, _⟩ => rfl
  | ⟨3, _⟩ => rfl

/-- The two reductions, last axis then third, leave the sum of the block's entries over those axes. -/
theorem rowsum_apply (x0 : FVec Ideal S8x128x16x64 .f32) (p : Fin 8) (q : Fin 128) :
    multiReduction .add [2] S8x128
      (multiReduction .add [3] S8x128x16 x0 0x00000000#32 Facts₀.reduces_S8x128x16x64_S8x128x16 (.inl rfl) rfl)
      0x00000000#32 Facts₀.reduces_S8x128x16_S8x128 (.inl rfl) rfl (ix2 p q) = blockSum x0 p q := by
  refine (Ideal.multiReduction_add_single _ 0x00000000#32 Facts₀.reduces_S8x128x16_S8x128 (.inl rfl) rfl (ix2 p q)).trans ?_
  unfold blockSum
  refine Finset.sum_congr rfl fun hi _ => ?_
  refine (congrArg (multiReduction .add [3] S8x128x16 x0 0x00000000#32 Facts₀.reduces_S8x128x16x64_S8x128x16 (.inl rfl) rfl)
    (lift_hi Facts₀.reduces_S8x128x16_S8x128 p q hi)).trans ?_
  refine (Ideal.multiReduction_add_single x0 0x00000000#32 Facts₀.reduces_S8x128x16x64_S8x128x16 (.inl rfl) rfl (ix3 p q hi)).trans ?_
  refine Finset.sum_congr rfl fun w _ => ?_
  exact congrArg x0 (lift_w Facts₀.reduces_S8x128x16x64_S8x128x16 p q hi w)

/-- The sum accumulator's update at an entry. -/
theorem pay3_apply (x0 : FVec Ideal S8x128x16x64 .f32) (acc : FVec Ideal S8x128 .f32) (p : Fin 8) (q : Fin 128) :
    k0_pay3 (F := Ideal) x0 acc (ix2 p q) = acc (ix2 p q) + blockSum x0 p q := by
  unfold k0_pay3
  rw [shapeCast_self, addf_apply, rowsum_apply]

/-- The sum-of-squares accumulator's update at an entry. -/
theorem pay4_apply (x0 : FVec Ideal S8x128x16x64 .f32) (acc : FVec Ideal S8x128 .f32) (p : Fin 8) (q : Fin 128) :
    k0_pay4 (F := Ideal) x0 acc (ix2 p q) = acc (ix2 p q) + blockSum (fun i => x0 i * x0 i) p q := by
  unfold k0_pay4
  rw [shapeCast_self, addf_apply, rowsum_apply]
  rfl

/-- The cleared accumulators hold zero. -/
theorem pay1_apply (j : S8x128.Idx) : k0_pay1 (F := Ideal) j = 0 := by
  unfold k0_pay1
  rw [shapeCast_self]
  exact Ideal.ofBits_zero_f32

theorem pay2_apply (j : S8x128.Idx) : k0_pay2 (F := Ideal) j = 0 := by
  unfold k0_pay2
  rw [shapeCast_self]
  exact Ideal.ofBits_zero_f32

/-- The mean at an entry. -/
theorem pay5_apply (s : FVec Ideal S8x128 .f32) (j : S8x128.Idx) :
    k0_pay5 (F := Ideal) s j = Ideal.div (s j) c4096 := rfl

/-- The standard deviation at an entry. -/
theorem pay6_apply (s ss : FVec Ideal S8x128 .f32) (j : S8x128.Idx) :
    k0_pay6 (F := Ideal) s ss j = Ideal.sqrt (max (Ideal.div (ss j - Ideal.div (s j * s j) c4096) c4095) c0) := rfl

end Cert.KernelIdeal.KValue

end
-- ==== Proof.KAcc.lean ====
/-
  The two accumulators after each grid point.  Number the 64 points n = (i * 4 + j) * 4 + h, where (i, j) picks the
  [8, 128] block of (batch, channel) pairs and h the 16-row slab along the reduction axis.  The input block at point n
  holds the entries  x[8 i + p, 128 j + q, 16 h + r, w].  Claim: after point n, at (p, q), the sum accumulator holds
  the sum of x[8 i + p, 128 j + q, r', w] over all w and all rows r' < 16 (h + 1), and the other accumulator the sum
  of the squares of the same entries.  Proof by induction along the points: at h = 0 both are cleared and receive the
  first slab's sums; at h > 0 the point before has the same (i, j) and h - 1, and the body adds the next slab's sums.
  Coordinates are kept as natural numbers (the array extended by zero outside its box) so that the slabs
  [16 h, 16 h + 16) concatenate by plain arithmetic.
-/
import proofs.«125075_j13494787244486_2_alg».proof.Proof.KPieces
import proofs.«125075_j13494787244486_2_alg».proof.Proof.KPay

noncomputable section

open Idealize.ShloMosaic Idealize.ShloMosaic.TcCoe Idealize.SL.Sem Idealize.ShloMosaic.ValueIdx

namespace Cert.KernelIdeal.KValue

open Cert.KernelIdeal Cert.KernelIdeal.Gen Cert.Moments

variable (m : (ℓ : Loc nD τ sig) → Buf (Elt Ideal) ℓ)

/-- The input array, extended by zero to natural-number coordinates. -/
def xN (x : SX.Idx → EReal) (a b h w : ℕ) : EReal :=
  if hh : a < 32 ∧ b < 512 ∧ h < 64 ∧ w < 64 then x (ix4 ⟨a, hh.1⟩ ⟨b, hh.2.1⟩ ⟨h, hh.2.2.1⟩ ⟨w, hh.2.2.2⟩) else 0

/-- The argument array on core c. -/
abbrev X (c : Dev nD) : SX.Idx → EReal := m ((c.tc : Thread nD τ).loc main_arg0)

/-- The sum, over the rows h < k and all w, of f applied to x[a, b, h, w]. -/
def accF (f : EReal → EReal) (x : SX.Idx → EReal) (a b k : ℕ) : EReal :=
  ∑ h ∈ Finset.range k, ∑ w : Fin 64, f (xN x a b h w.val)

theorem accF_zero (f : EReal → EReal) (x : SX.Idx → EReal) (a b : ℕ) : accF f x a b 0 = 0 := by
  unfold accF; rw [Finset.range_zero, Finset.sum_empty]

/-- Adding the next slab of 16 rows. -/
theorem accF_step (f : EReal → EReal) (x : SX.Idx → EReal) (a b h : ℕ) :
    accF f x a b (16 * h) + ∑ hi : Fin 16, ∑ w : Fin 64, f (xN x a b (16 * h + hi.val) w.val) = accF f x a b (16 * (h + 1)) := by
  unfold accF
  rw [show 16 * (h + 1) = 16 * h + 16 by ring, Finset.sum_range_add]
  exact congrArg (_ + ·) (Finset.sum_range (fun k => ∑ w : Fin 64, f (xN x a b (16 * h + k) w.val))).symm

/-- Which block of the input each point reads: (n / 16, n / 4 mod 4, n mod 4, 0). -/
theorem idx0 : ∀ t : Fin cfg0.N, win0_0.index t 0 = t.val / 16 ∧ win0_0.index t 1 = t.val / 4 % 4 ∧ win0_0.index t 2 = t.val % 4 ∧ win0_0.index t 3 = 0 :=
  (by decide +kernel : ∀ t : Fin grid0.N, win0_0.index t 0 = t.val / 16 ∧ win0_0.index t 1 = t.val / 4 % 4 ∧ win0_0.index t 2 = t.val % 4 ∧ win0_0.index t 3 = 0)

/-- The input block at a point, entry by entry: block index times block size plus the coordinate inside the block. -/
theorem iblk_apply (c : Dev nD) (t : Fin cfg0.N) (p : Fin 8) (q : Fin 128) (hi : Fin 16) (w : Fin 64) :
    (iblk m c 0 t : FVec Ideal S8x128x16x64 .f32) (ix4 p q hi w)
      = xN (X m c) (8 * (t.val / 16) + p.val) (128 * (t.val / 4 % 4) + q.val) (16 * (t.val % 4) + hi.val) w.val := by
  have hN : t.val < 64 := lt_of_lt_of_eq t.isLt (show cfg0.N = 64 from N_0)
  obtain ⟨i0, i1, i2, i3⟩ := idx0 t
  have hp := p.isLt; have hq := q.isLt; have hhi := hi.isLt; have hw := w.isLt
  unfold iblk
  rw [View.read_apply]
  show V m c main_arg0 (((cfg0.win 0).blk t).view.emb (ix4 p q hi w)) = _
  unfold xN
  rw [dif_pos ⟨by omega, by omega, by omega, hw⟩]
  rw [V_main_arg0]
  refine congrArg (m ((c.tc : Thread nD τ).loc main_arg0)) (funext fun a => Fin.ext ?_)
  match a with
  | ⟨0, _⟩ => show win0_0.index t 0 * 8 + 1 * p.val = 8 * (t.val / 16) + p.val; rw [i0]; omega
  | ⟨1, _⟩ => show win0_0.index t 1 * 128 + 1 * q.val = 128 * (t.val / 4 % 4) + q.val; rw [i1]; omega
  | ⟨2, _⟩ => show win0_0.index t 2 * 16 + 1 * hi.val = 16 * (t.val % 4) + hi.val; rw [i2]; omega
  | ⟨3, _⟩ => show win0_0.index t 3 * 64 + 1 * w.val = w.val; rw [i3]; omega

/-- The input block at a point, typed as the body's first load. -/
abbrev inBlk (c : Dev nD) (t : Fin cfg0.N) : FVec Ideal S8x128x16x64 .f32 := iblk m c 0 t

/-- The block sums of the input block at a point are the sums over its slab of rows. -/
theorem blockSum_iblk (c : Dev nD) (t : Fin cfg0.N) (p : Fin 8) (q : Fin 128) :
    blockSum (inBlk m c t) p q
      = ∑ hi : Fin 16, ∑ w : Fin 64, id (xN (X m c) (8 * (t.val / 16) + p.val) (128 * (t.val / 4 % 4) + q.val) (16 * (t.val % 4) + hi.val) w.val) :=
  Finset.sum_congr rfl fun hi _ => Finset.sum_congr rfl fun w _ => iblk_apply m c t p q hi w

theorem blockSumSq_iblk (c : Dev nD) (t : Fin cfg0.N) (p : Fin 8) (q : Fin 128) :
    blockSum (fun i => inBlk m c t i * inBlk m c t i) p q
      = ∑ hi : Fin 16, ∑ w : Fin 64, (fun v : EReal => v * v) (xN (X m c) (8 * (t.val / 16) + p.val) (128 * (t.val / 4 % 4) + q.val) (16 * (t.val % 4) + hi.val) w.val) :=
  Finset.sum_congr rfl fun hi _ => Finset.sum_congr rfl fun w _ => by
    show inBlk m c t (ix4 p q hi w) * inBlk m c t (ix4 p q hi w) = _
    rw [show inBlk m c t (ix4 p q hi w) = _ from iblk_apply m c t p q hi w]

/-- THE INVARIANT: after point n the accumulators hold the sums, and the sums of squares, over the rows read so far. -/
theorem acc_eq (c : Dev nD) : ∀ (n : ℕ) (hn : n < cfg0.N) (p : Fin 8) (q : Fin 128),
    (outsAt0 m c n hn).2.2.1 (ix2 p q) = accF id (X m c) (8 * (n / 16) + p.val) (128 * (n / 4 % 4) + q.val) (16 * (n % 4 + 1))
    ∧ (outsAt0 m c n hn).2.2.2 (ix2 p q) = accF (fun v => v * v) (X m c) (8 * (n / 16) + p.val) (128 * (n / 4 % 4) + q.val) (16 * (n % 4 + 1)) := by
  intro n
  induction n using Nat.strong_induction_on with
  | _ n ih =>
    intro hn p q
    have hN : n < 64 := lt_of_lt_of_eq hn (show cfg0.N = 64 from N_0)
    by_cases h0 : n % 4 = 0
    · have h1 : ¬(⟨n, hn⟩ : Fin cfg0.N).val % 4 = 3 := by dsimp only; omega
      rw [outsAt0_A m c ⟨n, hn⟩ h0 h1]
      dsimp only
      rw [sout_A_0, sout_A_1, pay3_apply, pay4_apply, pay1_apply, pay2_apply, zero_add, zero_add,
        blockSum_iblk m c ⟨n, hn⟩ p q, blockSumSq_iblk m c ⟨n, hn⟩ p q]
      dsimp only
      rw [h0]
      constructor
      · have := accF_step id (X m c) (8 * (n / 16) + p.val) (128 * (n / 4 % 4) + q.val) 0
        rw [accF_zero, zero_add] at this
        exact this
      · have := accF_step (fun v => v * v) (X m c) (8 * (n / 16) + p.val) (128 * (n / 4 % 4) + q.val) 0
        rw [accF_zero, zero_add] at this
        exact this
    · have hpos : n - 1 < n := by omega
      have hn' : n - 1 < cfg0.N := Nat.lt_of_le_of_lt (Nat.sub_le _ _) hn
      obtain ⟨ih1, ih2⟩ := ih (n - 1) hpos hn' p q
      have e16 : (n - 1) / 16 = n / 16 := by omega
      have e4 : (n - 1) / 4 % 4 = n / 4 % 4 := by omega
      have eh : (n - 1) % 4 + 1 = n % 4 := by omega
      rw [e16, e4, eh] at ih1 ih2
      by_cases h1 : n % 4 = 3
      · rw [outsAt0_C m c ⟨n, hn⟩ h0 h1]
        dsimp only
        rw [sout_C_0, sout_C_1, pay3_apply, pay4_apply, blockSum_iblk m c ⟨n, hn⟩ p q, blockSumSq_iblk m c ⟨n, hn⟩ p q]
        dsimp only
        rw [ih1, ih2]
        exact ⟨accF_step id _ _ _ _, accF_step (fun v => v * v) _ _ _ _⟩
      · rw [outsAt0_B m c ⟨n, hn⟩ h0 h1]
        dsimp only
        rw [sout_B_0, sout_B_1, pay3_apply, pay4_apply, blockSum_iblk m c ⟨n, hn⟩ p q, blockSumSq_iblk m c ⟨n, hn⟩ p q]
        dsimp only
        rw [ih1, ih2]
        exact ⟨accF_step id _ _ _ _, accF_step (fun v => v * v) _ _ _ _⟩

end Cert.KernelIdeal.KValue

end
-- ==== Proof.KFinal.lean ====
/-
  The two result arrays of the kernel's region.  A grid point with h = 3 is the last along the reduction axis: there
  the accumulators hold the complete sums over the 64 x 64 entries x[b, c, ., .] (`acc_eq` at 16 * 4 = 64 rows), and
  the body writes  total / 4096  and  sqrt (max ((totalSq - total * total / 4096) / 4095, 0)).  These are the only
  points whose output blocks are written back, block (i, j) landing at rows 8 i .. 8 i + 7 and columns
  128 j .. 128 j + 127 of the [32, 512] arrays; the 16 blocks tile the arrays.  So the first array ends holding the
  means and the second the standard deviations of every (b, c).
-/
import proofs.«125075_j13494787244486_2_alg».proof.Proof.KAcc

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Moments

variable (m : (ℓ : Loc nD τ sig) → Buf (Elt Ideal) ℓ)

/-- Over all 64 rows the natural-number sums are the sums over the array's own coordinates. -/
theorem accF_full (f : EReal → EReal) (x : SX.Idx → EReal) (a : Fin 32) (b : Fin 512) :
    accF f x a.val b.val 64 = ∑ h : Fin 64, ∑ w : Fin 64, f (x (ix4 a b h w)) := by
  unfold accF
  rw [Finset.sum_range]
  refine Finset.sum_congr rfl fun h _ => Finset.sum_congr rfl fun w _ => ?_
  unfold xN
  rw [dif_pos ⟨a.isLt, b.isLt, h.isLt, w.isLt⟩]

/-- At a last point the two outputs are the mean and the standard deviation of the accumulators just updated. -/
theorem out_last (c : Dev nD) (t : Fin cfg0.N) (h3 : t.val % 4 = 3) :
    (outsAt0 m c t.val t.isLt).1 = k0_pay5 (outsAt0 m c t.val t.isLt).2.2.1
    ∧ (outsAt0 m c t.val t.isLt).2.1 = k0_pay6 (outsAt0 m c t.val t.isLt).2.2.1 (outsAt0 m c t.val t.isLt).2.2.2 := by
  have h0 : ¬t.val % 4 = 0 := by omega
  rw [outsAt0_C m c t h0 h3]
  dsimp only
  rw [out_C_1, out_C_2, sout_C_0, sout_C_1]
  exact ⟨rfl, rfl⟩

/-- Which block of each output a point addresses: (n / 16, n / 4 mod 4). -/
theorem idx1 : ∀ t : Fin cfg0.N, win0_1.index t 0 = t.val / 16 ∧ win0_1.index t 1 = t.val / 4 % 4 :=
  (by decide +kernel : ∀ t : Fin grid0.N, win0_1.index t 0 = t.val / 16 ∧ win0_1.index t 1 = t.val / 4 % 4)
theorem idx2 : ∀ t : Fin cfg0.N, win0_2.index t 0 = t.val / 16 ∧ win0_2.index t 1 = t.val / 4 % 4 :=
  (by decide +kernel : ∀ t : Fin grid0.N, win0_2.index t 0 = t.val / 16 ∧ win0_2.index t 1 = t.val / 4 % 4)

/-- The complete sums at a last point, as the specification's totals. -/
theorem acc_last (c : Dev nD) (t : Fin cfg0.N) (h3 : t.val % 4 = 3) (p : Fin 8) (q : Fin 128) (a : Fin 32) (b : Fin 512)
    (ha : a.val = 8 * (t.val / 16) + p.val) (hb : b.val = 128 * (t.val / 4 % 4) + q.val) :
    (outsAt0 m c t.val t.isLt).2.2.1 (ix2 p q) = total (X m c) a b
    ∧ (outsAt0 m c t.val t.isLt).2.2.2 (ix2 p q) = totalSq (X m c) a b := by
  obtain ⟨e1, e2⟩ := acc_eq m c t.val t.isLt p q
  rw [h3, ← ha, ← hb] at e1 e2
  rw [e1, e2, accF_full, accF_full]
  exact ⟨rfl, rfl⟩

/-- What a last point writes back into the first output is its block of the array of means. -/
theorem flushed1 (c : Dev nD) (t : Fin cfg0.N) (hf : (cfg0.win 1).flush t = true) :
    (dats m 0 c).flushed 1 t = ((cfg0.win 1).blk t).view.read (Elt Ideal) (meanArr (X m c)) := by
  have hN : t.val < 64 := lt_of_lt_of_eq t.isLt (show cfg0.N = 64 from N_0)
  have h3 : t.val % 4 = 3 := (flush0_1 t).mp hf
  obtain ⟨i0, i1⟩ := idx1 t
  show (cfg0.win 1).cut (grid0.coords t) ((dats m 0 c).after 1 t) = _
  rw [after0_1, (out_last m c t h3).1]
  funext y
  obtain ⟨p, q, rfl⟩ : ∃ (p : Fin 8) (q : Fin 128), y = ix2 p q := ⟨y 0, y 1, eq_ix2 y⟩
  have hp := p.isLt; have hq := q.isLt
  rw [View.read_apply]
  show k0_pay5 (outsAt0 m c t.val t.isLt).2.2.1 (ix2 p q) = meanArr (X m c) (((cfg0.win 1).blk t).view.emb (ix2 p q))
  have ha : (((cfg0.win 1).blk t).view.emb (ix2 p q) 0).val = 8 * (t.val / 16) + p.val := by
    show win0_1.index t 0 * 8 + 1 * p.val = _; rw [i0]; omega
  have hb : (((cfg0.win 1).blk t).view.emb (ix2 p q) 1).val = 128 * (t.val / 4 % 4) + q.val := by
    show win0_1.index t 1 * 128 + 1 * q.val = _; rw [i1]; omega
  rw [pay5_apply, (acc_last m c t h3 p q _ _ ha hb).1]
  rfl

/-- What a last point writes back into the second output is its block of the array of standard deviations. -/
theorem flushed2 (c : Dev nD) (t : Fin cfg0.N) (hf : (cfg0.win 2).flush t = true) :
    (dats m 0 c).flushed 2 t = ((cfg0.win 2).blk t).view.read (Elt Ideal) (stdKArr (X m c)) := by
  have hN : t.val < 64 := lt_of_lt_of_eq t.isLt (show cfg0.N = 64 from N_0)
  have h3 : t.val % 4 = 3 := (flush0_2 t).mp hf
  obtain ⟨i0, i1⟩ := idx2 t
  show (cfg0.win 2).cut (grid0.coords t) ((dats m 0 c).after 2 t) = _
  rw [after0_2, (out_last m c t h3).2]
  funext y
  obtain ⟨p, q, rfl⟩ : ∃ (p : Fin 8) (q : Fin 128), y = ix2 p q := ⟨y 0, y 1, eq_ix2 y⟩
  have hp := p.isLt; have hq := q.isLt
  rw [View.read_apply]
  show k0_pay6 (outsAt0 m c t.val t.isLt).2.2.1 (outsAt0 m c t.val t.isLt).2.2.2 (ix2 p q)
    = stdKArr (X m c) (((cfg0.win 2).blk t).view.emb (ix2 p q))
  have ha : (((cfg0.win 2).blk t).view.emb (ix2 p q) 0).val = 8 * (t.val / 16) + p.val := by
    show win0_2.index t 0 * 8 + 1 * p.val = _; rw [i0]; omega
  have hb : (((cfg0.win 2).blk t).view.emb (ix2 p q) 1).val = 128 * (t.val / 4 % 4) + q.val := by
    show win0_2.index t 1 * 128 + 1 * q.val = _; rw [i1]; omega
  rw [pay6_apply, (acc_last m c t h3 p q _ _ ha hb).1, (acc_last m c t h3 p q _ _ ha hb).2]
  rfl

/-- Membership in an output block, as bounds on the two coordinates. -/
theorem mem_blk1 (t : Fin cfg0.N) (i : S32x512.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v0_0).slice (win0_1.rect t)).set ↔ _
  rw [View.set_slice_whole, Rect.mem_set_unit]
  exact Iff.rfl

theorem mem_blk2 (t : Fin cfg0.N) (i : S32x512.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0_1).slice (win0_2.rect t)).set ↔ _
  rw [View.set_slice_whole, Rect.mem_set_unit]
  exact Iff.rfl

/-- Every entry (r, s) of an output lies in the block written back at the last point of (r / 8, s / 128). -/
theorem cover1 (i : S32x512.Idx) : ∃ t : Fin cfg0.N, (cfg0.win 1).flush t = true ∧ i ∈ ((cfg0.win 1).blk t).view.set := by
  have h0 : (i 0).val < 32 := (i 0).isLt
  have h1 : (i 1).val < 512 := (i 1).isLt
  have hn : ((i 0).val / 8 * 4 + (i 1).val / 128) * 4 + 3 < cfg0.N := by
    rw [show cfg0.N = 64 from N_0]; omega
  refine ⟨⟨((i 0).val / 8 * 4 + (i 1).val / 128) * 4 + 3, hn⟩, (flush0_1 _).mpr (by dsimp only; omega), ?_⟩
  rw [mem_blk1]
  obtain ⟨e0, e1⟩ := idx1 ⟨((i 0).val / 8 * 4 + (i 1).val / 128) * 4 + 3, hn⟩
  dsimp only at e0 e1
  intro a
  match a with
  | ⟨0, _⟩ =>
    show win0_1.index _ 0 * 8 ≤ (i 0).val ∧ (i 0).val < win0_1.index _ 0 * 8 + 8
    rw [e0]; omega
  | ⟨1, _⟩ =>
    show win0_1.index _ 1 * 128 ≤ (i 1).val ∧ (i 1).val < win0_1.index _ 1 * 128 + 128
    rw [e1]; omega

theorem cover2 (i : S32x512.Idx) : ∃ t : Fin cfg0.N, (cfg0.win 2).flush t = true ∧ i ∈ ((cfg0.win 2).blk t).view.set := by
  have h0 : (i 0).val < 32 := (i 0).isLt
  have h1 : (i 1).val < 512 := (i 1).isLt
  have hn : ((i 0).val / 8 * 4 + (i 1).val / 128) * 4 + 3 < cfg0.N := by
    rw [show cfg0.N = 64 from N_0]; omega
  refine ⟨⟨((i 0).val / 8 * 4 + (i 1).val / 128) * 4 + 3, hn⟩, (flush0_2 _).mpr (by dsimp only; omega), ?_⟩
  rw [mem_blk2]
  obtain ⟨e0, e1⟩ := idx2 ⟨((i 0).val / 8 * 4 + (i 1).val / 128) * 4 + 3, hn⟩
  dsimp only at e0 e1
  intro a
  match a with
  | ⟨0, _⟩ =>
    show win0_2.index _ 0 * 8 ≤ (i 0).val ∧ (i 0).val < win0_2.index _ 0 * 8 + 8
    rw [e0]; omega
  | ⟨1, _⟩ =>
    show win0_2.index _ 1 * 128 ≤ (i 1).val ∧ (i 1).val < win0_2.index _ 1 * 128 + 128
    rw [e1]; omega

/-- The first output array ends holding the means. -/
theorem final1 (c : Dev nD) : (dats m 0 c).arrAt 1 cfg0.N = meanArr (X m c) :=
  (dats m 0 c).arrAt_eq_of_cover 1 (meanArr (X m c)) (fun t hf => flushed1 m c t hf) cover1

/-- The second output array ends holding the standard deviations. -/
theorem final2 (c : Dev nD) : (dats m 0 c).arrAt 2 cfg0.N = stdKArr (X m c) :=
  (dats m 0 c).arrAt_eq_of_cover 2 (stdKArr (X m c)) (fun t hf => flushed2 m c t hf) cover2

end Cert.KernelIdeal.KValue

end
-- ==== Proof.KTail.lean ====
/-
  The program's last line.  After the pipelined region the program concatenates its two result arrays along axis 1.
  The region leaves each of its arrays at the contents computed from the proof data, so the concatenation's result is
  the concatenation of those two contents; the argument array is an input of the region and ends as it began.
-/
import proofs.«125075_j13494787244486_2_alg».proof.Proof.Gen.KernelIdeal.Frame
import Idealize.ShloMosaic.Lib.Pipeline.Value
import Idealize.ShloMosaic.Lib.StableHlo.Run
import Idealize.ShloMosaic.Lib.Tactic
import Idealize.ShloMosaic.PureOps.Ideal

set_option maxRecDepth 16384

noncomputable section

namespace Cert.KernelIdeal.KValue

open Idealize.ShloMosaic Idealize.ShloMosaic.TcCoe Idealize.ShloMosaic.Tactic
open Idealize.SL Idealize.SL.Sem
open Cert.KernelIdeal Cert.KernelIdeal.Gen

/-- What the region leaves in its second array, read at the first result's reference. -/
theorem arr1_eq (m : (ℓ : Loc nD τ sig) → Buf (Elt Ideal) ℓ) (c : Dev nD) :
    Pipeline.withArrays (cfgs 0).spec c (V0 m c) (fun w => (dats m 0 c).arrAt w (cfgs 0).N) (Proc.devRef .tc main_v0_0)
      = (dats m 0 c).arrAt 1 cfg0.N :=
  Pipeline.withArrays_arr spec0 launch0.win.arr_inj c _ _ 1

/-- What the region leaves in its third array, read at the second result's reference. -/
theorem arr2_eq (m : (ℓ : Loc nD τ sig) → Buf (Elt Ideal) ℓ) (c : Dev nD) :
    Pipeline.withArrays (cfgs 0).spec c (V0 m c) (fun w => (dats m 0 c).arrAt w (cfgs 0).N) (Proc.devRef .tc main_v0_1)
      = (dats m 0 c).arrAt 2 cfg0.N :=
  Pipeline.withArrays_arr spec0 launch0.win.arr_inj c _ _ 2

/-- The concatenated result after the last line. -/
theorem tail_eq (m : (ℓ : Loc nD τ sig) → Buf (Elt Ideal) ℓ) (c : Dev nD) :
    Pipeline.afterTail₀ cfgs (dats m) 0 (V0 m) [hostOps1] c main_v1
      = concatenate S32x1024 1 [⟨S32x512, (dats m 0 c).arrAt 1 cfg0.N⟩, ⟨S32x512, (dats m 0 c).arrAt 2 cfg0.N⟩]
          Facts₀.concatenates_S32x512_S32x512_S32x1024_d1 := by
  unfold Pipeline.afterTail₀
  simp only [List.flatten_cons, List.flatten_nil, List.append_nil]
  after_results
  rw [arr1_eq, arr2_eq]

theorem run_tail (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1)
        = concatenate S32x1024 1 [⟨S32x512, (dats m 0 c).arrAt 1 cfg0.N⟩, ⟨S32x512, (dats m 0 c).arrAt 2 cfg0.N⟩]
            Facts₀.concatenates_S32x512_S32x512_S32x1024_d1
      ∧ r.2.mem ((c.tc : Thread nD τ).loc main_arg0) = m ((c.tc : Thread nD τ).loc main_arg0) :=
  (θ_run defs _ _).mono (fun _ h c =>
    ⟨((h c).2 main_v1 (Pipeline.mem_restRefs_of main_v1 (by decide) (by decide))).trans (tail_eq m c),
      ((h c).1 0).trans (((dats m 0 c).arrAt_in 0 rfl _).trans ((A_eq m c 0).trans (V_main_arg0 m c)))⟩) (run_main m ρ)

end Cert.KernelIdeal.KValue

end
-- ==== Proof.RefRun.lean ====
/-
  The reference program's @main as the list of its thirty host operations, the three outlined functions
  (the standard deviation, the variance inside it, the selection inside that) unfolded at their calls over
  the calls' buffer records, and its run read back: every weakly fair execution terminates with the result
  buffer at the operations' composed pure term of the argument's launch contents, the argument unchanged.
-/
import proofs.«125075_j13494787244486_2_alg».proof.Proof.Gen.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Facts₀

variable {F : FTy → Type} [FloatOps F]

/-- @main's operations in order, the calls unfolded: six of @main's own (the zero, the sum over the last two
    axes, 4096 and its broadcast, the quotient, the integer one), then the variance function's nineteen (the
    mean again, broadcast back over the last two axes, the deviations and their squares, 4096 minus the
    integer read as a float, the sum of squares over it, the comparison of the divisor with zero, the
    not-a-number constant), the selection's three, the square root, and the concatenation. -/
abbrev ops : List (HloOp τ sig (Elt F)) :=
  [ nullary main_cst (constant S_ .f32 0x00000000#32),
    binary main_arg0 main_cst main_v0 ((fun x v => Host.reduceAdd x v reducesTo_S32x512x64x64_S32x512_d2_3 h_S_) : (⟨S32x512x64x64, .f32⟩ : BufTy).Contents (Elt F) → (⟨S_, .f32⟩ : BufTy).Contents (Elt F) → (⟨S32x512, .f32⟩ : BufTy).Contents (Elt F)),
    nullary main_cst_0 (constant S_ .f32 0x45800000#32),
    unary main_cst_0 main_v1 (broadcastInDim S32x512 ![] bcast_S_S32x512 : (⟨S_, .f32⟩ : BufTy).Contents (Elt F) → (⟨S32x512, .f32⟩ : BufTy).Contents (Elt F)),
    binary main_v0 main_v1 main_v2 (Host.divf : (⟨S32x512, .f32⟩ : BufTy).Contents (Elt F) → (⟨S32x512, .f32⟩ : BufTy).Contents (Elt F) → (⟨S32x512, .f32⟩ : BufTy).Contents (Elt F)),
    nullary main_c (constantI S_ 32 1#32),
    TRef.nullary main_call0.call0.cst (constant S_ .f32 0x00000000#32),
    TRef.binary (.of main_arg0) main_call0.call0.cst main_call0.call0.v0 (fun x v => Host.reduceAdd x v reducesTo_S32x512x64x64_S32x512_d2_3 h_S_),
    TRef.unary main_call0.call0.v0 main_call0.call0.v1 (broadcastInDim S32x512x1x1 ![0, 1] bcast_S32x512_S32x512x1x1_0_1),
    TRef.nullary main_call0.call0.cst_0 (constant S_ .f32 0x45800000#32),
    TRef.unary main_call0.call0.cst_0 main_call0.call0.v2 (broadcastInDim S32x512x1x1 ![] bcast_S_S32x512x1x1),
    TRef.binary main_call0.call0.v1 main_call0.call0.v2 main_call0.call0.v3 Host.divf,
    TRef.unary main_call0.call0.v3 main_call0.call0.v4 (broadcastInDim S32x512x64x64 ![0, 1, 2, 3] bcast_S32x512x1x1_S32x512x64x64_0_1_2_3),
    TRef.binary (.of main_arg0) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x45800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S32x512x64x64_S32x512_d2_3 h_S_),
    TRef.unary main_call0.call0.v8 main_call0.call0.v10 (broadcastInDim S32x512 ![] bcast_S_S32x512),
    TRef.binary main_call0.call0.v9 main_call0.call0.v10 main_call0.call0.v11 Host.divf,
    TRef.nullary main_call0.call0.cst_3 (constant S_ .f32 0x00000000#32),
    TRef.binary main_call0.call0.v8 main_call0.call0.cst_3 main_call0.call0.v12 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S32x512 ![] bcast_S_S32x512),
    TRef.ternary main_call0.call0.v12 main_call0.call0.v11 main_call0.call0.call0.v1 main_call0.call0.call0.v2 (fun p a b => select (broadcastInDim S32x512 ![] bcast_S_S32x512 p) a b),
    TRef.unary main_call0.call0.call0.v2 main_call0.v1 Host.sqrt,
    binary main_v2 main_v3 main_v4 ((fun a b => concatenate S32x1024 1 [⟨S32x512, a⟩, ⟨S32x512, b⟩] concatenates_S32x512_S32x512_S32x1024_d1) : (⟨S32x512, .f32⟩ : BufTy).Contents (Elt F) → (⟨S32x512, .f32⟩ : BufTy).Contents (Elt F) → (⟨S32x1024, .f32⟩ : BufTy).Contents (Elt F)) ]

set_option maxRecDepth 1024 in
/-- @main is that straight line: the functions' definitions unfolded at their calls and the records at their
    fields, both sides are one chain of steps once sequencing is reassociated. -/
theorem main_eq (c : Dev nD) : main (F := F) c = seq ops := by
  simp only [main, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..⟩

/-! ## The composed term -/

/-- The sums of `x` over the last two axes, from the zero. -/
abbrev refSum (x : FVec F S32x512x64x64 .f32) : FVec F S32x512 .f32 :=
  Host.reduceAdd x (constant S_ .f32 0x00000000#32) reducesTo_S32x512x64x64_S32x512_d2_3 h_S_

/-- The means: the sums over 4096. -/
abbrev refMean (x : FVec F S32x512x64x64 .f32) : FVec F S32x512 .f32 :=
  Host.divf (refSum x) (broadcastInDim S32x512 ![] bcast_S_S32x512 (constant S_ .f32 0x45800000#32))

/-- The means again, as the variance computes them, broadcast back over the last two axes. -/
abbrev refMu (x : FVec F S32x512x64x64 .f32) : FVec F S32x512x64x64 .f32 :=
  broadcastInDim S32x512x64x64 ![0, 1, 2, 3] bcast_S32x512x1x1_S32x512x64x64_0_1_2_3
    (Host.divf (broadcastInDim S32x512x1x1 ![0, 1] bcast_S32x512_S32x512x1x1_0_1 (refSum x))
      (broadcastInDim S32x512x1x1 ![] bcast_S_S32x512x1x1 (constant S_ .f32 0x45800000#32)))

/-- The deviations from the mean. -/
abbrev refDev (x : FVec F S32x512x64x64 .f32) : FVec F S32x512x64x64 .f32 := subf x (refMu x)

/-- The variance's divisor: 4096 minus the integer one read as a float. -/
abbrev refDivisor : FVec F S_ .f32 :=
  subf (constant S_ .f32 0x45800000#32) (sitofp .f32 (constantI S_ 32 1#32))

/-- The sum of squared deviations over the divisor. -/
abbrev refVar (x : FVec F S32x512x64x64 .f32) : FVec F S32x512 .f32 :=
  Host.divf (Host.reduceAdd (mulf (refDev x) (refDev x)) (constant S_ .f32 0x00000000#32) reducesTo_S32x512x64x64_S32x512_d2_3 h_S_)
    (broadcastInDim S32x512 ![] bcast_S_S32x512 refDivisor)

/-- The variance where the divisor is positive, the not-a-number constant elsewhere. -/
abbrev refSel (x : FVec F S32x512x64x64 .f32) : FVec F S32x512 .f32 :=
  select (broadcastInDim S32x512 ![] bcast_S_S32x512 (cmpf .ogt (refDivisor (F := F)) (constant S_ .f32 0x00000000#32)))
    (refVar x) (broadcastInDim S32x512 ![] bcast_S_S32x512 (constant S_ .f32 0x7FC00000#32))

/-- The standard deviations. -/
abbrev refStd (x : FVec F S32x512x64x64 .f32) : FVec F S32x512 .f32 := Host.sqrt (refSel x)

/-- The result: the means, then the standard deviations, along axis 1. -/
abbrev refOut (x : FVec F S32x512x64x64 .f32) : FVec F S32x1024 .f32 :=
  concatenate S32x1024 1 [⟨S32x512, refMean x⟩, ⟨S32x512, refStd x⟩] concatenates_S32x512_S32x512_S32x1024_d1

/-- On every device, for any float values, from any memory with zero counters: every weakly fair execution of
    @main terminates with the result at the composed term of the argument and the argument unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v4).trans (by after_results_simp; rfl),
      (h c main_arg0).trans (by after_results_simp)⟩)
    (run_seq scopedRefs_eq scopedSems_eq defs main (fun _ => ops) main_eq (fun _ => ops_sub) m ρ)

end Cert.ReferenceIdeal.RefValue

end
-- ==== Proof.RefRead.lean ====
/-
  The reference's composed term read index by index, over the extended reals.  At the pair (b, c) the host sum
  over the last two axes is the double sum over the 64 x 64 entries x[b, c, ., .] (the source indices that drop
  to (b, c) are exactly the (b, c, h, w)); the initial value is the zero.  So the first half of the result is the
  array of means, and in the second half the mean is broadcast back, subtracted, the deviations squared and summed,
  and divided by 4096 minus one, which is positive, so the selection keeps the quotient; its square root is the
  standard deviation in the second arrangement of the specification.
-/
import proofs.«125075_j13494787244486_2_alg».proof.Proof.RefRun
import proofs.«125075_j13494787244486_2_alg».proof.Proof.Spec
import Idealize.ShloMosaic.Lib.IdealHost
import Idealize.ShloMosaic.Lib.Pipeline.Value
import Idealize.ShloMosaic.PureOps.Ideal.Laws

noncomputable section

namespace Cert.ReferenceIdeal.RefValue

open Cert.ReferenceIdeal Idealize.ShloMosaic Idealize.ShloMosaic.TcCoe Idealize.SL.Sem Idealize.ShloMosaic.StableHlo
open Idealize.ShloMosaic.ValueIdx
open Facts₀

/-! ## The source indices that reduce to (b, c) -/

/-- Dropping the last two axes of (b, c, h, w) leaves (b, c). -/
theorem drop_ix4 (b : Fin 32) (c : Fin 512) (h w : Fin 64) :
    reducesTo_S32x512x64x64_S32x512_d2_3.drop (ix4 b c h w) = ix2 b c := by
  funext a
  match a with
  | ⟨0, _⟩ => rfl
  | ⟨1, _⟩ => rfl

/-- An index that drops to (b, c) is (b, c, its last two coordinates). -/
theorem eq_ix4_of_drop (i : S32x512x64x64.Idx) (b : Fin 32) (c : Fin 512)
    (hd : reducesTo_S32x512x64x64_S32x512_d2_3.drop i = ix2 b c) : i = ix4 b c (i 2) (i 3) := by
  have h0 : i 0 = b := congrFun hd 0
  have h1 : i 1 = c := congrFun hd 1
  funext a
  match a with
  | ⟨0, _⟩ => exact h0
  | ⟨1, _⟩ => exact h1
  | ⟨2, _⟩ => rfl
  | ⟨3, _⟩ => rfl

/-- The pairs (h, w) as the indices (b, c, h, w). -/
def pairEmb (b : Fin 32) (c : Fin 512) : Fin 64 × Fin 64 ↪ S32x512x64x64.Idx :=
  ⟨fun p => ix4 b c p.1 p.2, fun p q e => Prod.ext (congrFun e 2) (congrFun e 3)⟩

theorem filter_drop (b : Fin 32) (c : Fin 512) :
    Finset.univ.filter (fun i : S32x512x64x64.Idx => reducesTo_S32x512x64x64_S32x512_d2_3.drop i = ix2 b c)
      = Finset.univ.map (pairEmb b c) := by
  ext i
  simp only [Finset.mem_filter, Finset.mem_univ, true_and, Finset.mem_map, pairEmb]
  exact ⟨fun hd => ⟨(i 2, i 3), (eq_ix4_of_drop i b c hd).symm⟩, fun ⟨p, hp⟩ => hp ▸ drop_ix4 b c p.1 p.2⟩

/-- The host sum over the last two axes at (b, c), from the zero, is the double sum over h and w. -/
theorem hostSum_apply (f : S32x512x64x64.Idx → EReal) (b : Fin 32) (c : Fin 512) :
    Host.reduceAdd (F := Ideal) (φ := .f32) f (constant (F := Ideal) S_ .f32 0x00000000#32) reducesTo_S32x512x64x64_S32x512_d2_3 h_S_ (ix2 b c)
      = ∑ h : Fin 64, ∑ w : Fin 64, f (ix4 b c h w) := by
  refine (hostReduceAdd_apply _ _ _ _ _).trans ?_
  unfold Ideal.hostReduceAdd
  rw [filter_drop, Finset.sum_map, Fintype.sum_prod_type]
  refine (congrArg (· + _) ((constant_apply _ _).trans Ideal.ofBits_zero_f32)).trans ?_
  rw [zero_add]
  rfl

/-! ## The two halves at an index -/

/-- A scalar constant broadcast to the pairs reads its pattern's value. -/
theorem bcastConst_apply (bits : BitVec 32) (j : S32x512.Idx) :
    broadcastInDim S32x512 ![] bcast_S_S32x512 (constant (F := Ideal) S_ .f32 bits) j = Ideal.ofBits .f32 bits :=
  (broadcastInDim_scalar_apply _ _ _).trans (constant_apply _ _)

/-- The sums at (b, c). -/
theorem refSum_apply (x : S32x512x64x64.Idx → EReal) (b : Fin 32) (c : Fin 512) :
    refSum (F := Ideal) x (ix2 b c) = Cert.Moments.total x b c :=
  hostSum_apply x b c

/-- The first half is the array of means. -/
theorem refMean_eq (x : S32x512x64x64.Idx → EReal) : refMean (F := Ideal) x = Cert.Moments.meanArr x := by
  funext j
  obtain ⟨b, c, rfl⟩ : ∃ (b : Fin 32) (c : Fin 512), j = ix2 b c := ⟨j 0, j 1, eq_ix2 j⟩
  show Ideal.div (refSum (F := Ideal) x (ix2 b c))
      (broadcastInDim S32x512 ![] bcast_S_S32x512 (constant (F := Ideal) S_ .f32 0x45800000#32) (ix2 b c))
    = Ideal.div (Cert.Moments.total x b c) Cert.Moments.c4096
  rw [refSum_apply, bcastConst_apply]

/-- The mean broadcast back over the last two axes reads the mean of its pair. -/
theorem refMu_apply (x : S32x512x64x64.Idx → EReal) (b : Fin 32) (c : Fin 512) (h w : Fin 64) :
    refMu (F := Ideal) x (ix4 b c h w) = Cert.Moments.mean x b c := by
  refine (broadcastInDim_apply (s := S32x512x1x1) (t := S32x512x64x64) ![0, 1, 2, 3]
    bcast_S32x512x1x1_S32x512x64x64_0_1_2_3 _ (ix4 b c h w) (ix4 b c (0 : Fin 1) (0 : Fin 1)) (fun a => ?_)).trans ?_
  · match a with
    | ⟨0, _⟩ => rfl
    | ⟨1, _⟩ => rfl
    | ⟨2, _⟩ => rfl
    | ⟨3, _⟩ => rfl
  show Ideal.div
      (broadcastInDim S32x512x1x1 ![0, 1] bcast_S32x512_S32x512x1x1_0_1 (refSum (F := Ideal) x) (ix4 b c (0 : Fin 1) (0 : Fin 1)))
      (broadcastInDim S32x512x1x1 ![] bcast_S_S32x512x1x1 (constant (F := Ideal) S_ .f32 0x45800000#32) (ix4 b c (0 : Fin 1) (0 : Fin 1)))
    = Ideal.div (Cert.Moments.total x b c) Cert.Moments.c4096
  rw [broadcastInDim_apply (s := S32x512) (t := S32x512x1x1) ![0, 1] bcast_S32x512_S32x512x1x1_0_1 (refSum (F := Ideal) x)
      (ix4 b c (0 : Fin 1) (0 : Fin 1)) (ix2 b c) (fun a => match a with | ⟨0, _⟩ => rfl | ⟨1, _⟩ => rfl),
    refSum_apply, broadcastInDim_scalar_apply, constant_apply]

/-- The variance's divisor is 4096 minus the integer one as a real. -/
theorem refDivisor_apply :
    refDivisor (F := Ideal) ix0 = Cert.Moments.c4096 - (((1#32 : BitVec 32).toInt : ℝ) : EReal) := rfl

/-- The pattern 0x45800000 is the real 4096. -/
theorem c4096_eq : Cert.Moments.c4096 = ((4096 : ℝ) : EReal) := by
  simp [Cert.Moments.c4096, Ideal.ofBits, Ideal.ieee, -EReal.coe_mul]; norm_num

/-- The divisor is positive. -/
theorem divisor_pos : (0 : EReal) < Cert.Moments.c4096 - (((1#32 : BitVec 32).toInt : ℝ) : EReal) := by
  rw [c4096_eq, show ((1#32 : BitVec 32).toInt : ℝ) = 1 by norm_num, ← EReal.coe_sub]
  exact EReal.coe_pos.mpr (by norm_num)

/-- The selection's condition, at any pair, is the bit one: the divisor is greater than zero. -/
theorem refCond_apply (j : S32x512.Idx) :
    broadcastInDim S32x512 ![] bcast_S_S32x512
      (cmpf .ogt (refDivisor (F := Ideal)) (constant (F := Ideal) S_ .f32 0x00000000#32)) j = 1#1 := by
  refine (broadcastInDim_scalar_apply _ _ _).trans ?_
  show Ideal.cmp .ogt (refDivisor (F := Ideal) ix0) (Ideal.ofBits .f32 0x00000000#32) = 1#1
  rw [refDivisor_apply, Ideal.ofBits_zero_f32]
  show BitVec.ofBool (decide ((0 : EReal) < Cert.Moments.c4096 - (((1#32 : BitVec 32).toInt : ℝ) : EReal))) = 1#1
  rw [decide_eq_true divisor_pos]
  rfl

/-- The quotient at (b, c) is the variance in the second arrangement. -/
theorem refVar_apply (x : S32x512x64x64.Idx → EReal) (b : Fin 32) (c : Fin 512) :
    refVar (F := Ideal) x (ix2 b c) = Cert.Moments.varR x b c := by
  show Ideal.div
      (Host.reduceAdd (F := Ideal) (φ := .f32) (mulf (refDev (F := Ideal) x) (refDev (F := Ideal) x))
        (constant (F := Ideal) S_ .f32 0x00000000#32) reducesTo_S32x512x64x64_S32x512_d2_3 h_S_ (ix2 b c))
      (broadcastInDim S32x512 ![] bcast_S_S32x512 (refDivisor (F := Ideal)) (ix2 b c))
    = Ideal.div (Cert.Moments.devSq x b c) (Cert.Moments.c4096 - (((1#32 : BitVec 32).toInt : ℝ) : EReal))
  rw [hostSum_apply, broadcastInDim_scalar_apply, refDivisor_apply]
  refine congrArg (Ideal.div · _) ?_
  unfold Cert.Moments.devSq
  refine Finset.sum_congr rfl fun h _ => Finset.sum_congr rfl fun w _ => ?_
  show (x (ix4 b c h w) - refMu (F := Ideal) x (ix4 b c h w)) * (x (ix4 b c h w) - refMu (F := Ideal) x (ix4 b c h w)) = _
  rw [refMu_apply]

/-- The second half is the array of standard deviations, variance in the second arrangement. -/
theorem refStd_eq (x : S32x512x64x64.Idx → EReal) : refStd (F := Ideal) x = Cert.Moments.stdRArr x := by
  funext j
  obtain ⟨b, c, rfl⟩ : ∃ (b : Fin 32) (c : Fin 512), j = ix2 b c := ⟨j 0, j 1, eq_ix2 j⟩
  show Ideal.sqrt (Scalar.select
      (broadcastInDim S32x512 ![] bcast_S_S32x512
        (cmpf .ogt (refDivisor (F := Ideal)) (constant (F := Ideal) S_ .f32 0x00000000#32)) (ix2 b c))
      (refVar (F := Ideal) x (ix2 b c))
      (broadcastInDim S32x512 ![] bcast_S_S32x512 (constant (F := Ideal) S_ .f32 0x7FC00000#32) (ix2 b c)))
    = Ideal.sqrt (Cert.Moments.varR x b c)
  rw [refCond_apply, select_one, refVar_apply]

/-- The composed term is the means, then the standard deviations. -/
theorem refOut_eq (x : S32x512x64x64.Idx → EReal) :
    refOut (F := Ideal) x
      = concatenate S32x1024 1 [⟨S32x512, Cert.Moments.meanArr x⟩, ⟨S32x512, Cert.Moments.stdRArr x⟩]
          Facts₀.concatenates_S32x512_S32x512_S32x1024_d1 := by
  show concatenate S32x1024 1 [⟨S32x512, refMean (F := Ideal) x⟩, ⟨S32x512, refStd (F := Ideal) x⟩] _ = _
  rw [refMean_eq, refStd_eq]

/-- At the ideal values, on every device, from any memory with zero counters: every weakly fair execution of
    @main terminates with the result array at the means followed by the standard deviations of the argument,
    and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4)
        = concatenate S32x1024 1 [⟨S32x512, Cert.Moments.meanArr (m ((c.tc : Thread nD τ).loc main_arg0))⟩,
                                   ⟨S32x512, Cert.Moments.stdRArr (m ((c.tc : Thread nD τ).loc main_arg0))⟩]
            Facts₀.concatenates_S32x512_S32x512_S32x1024_d1
      ∧ r.2.mem ((c.tc : Thread nD τ).loc main_arg0) = m ((c.tc : Thread nD τ).loc main_arg0) :=
  (θ_run (defs (F := Ideal)) _ _).mono (fun _ h c => ⟨(h c).1.trans (refOut_eq _), (h c).2⟩) (run_term (F := Ideal) m ρ)

end Cert.ReferenceIdeal.RefValue

end
-- ==== Proof.MomentLaw.lean ====
/-
  The one algebraic law behind this certificate, over the reals: for finitely many reals x_k, k in a finite type of
  n elements with n > 0, the sum of squared deviations from the mean equals the sum of squares minus the squared sum
  over n:  sum (x_k - s/n)^2 = ss - s*s/n, where s = sum x_k and ss = sum x_k^2.  In particular the right side is
  nonnegative.
-/
import Mathlib

namespace Cert.Moments

open Finset

/-- Sum of squared deviations from the mean, expanded: sum (x - s/n)^2 = ss - s*s/n. -/
theorem sum_sq_dev {ι : Type*} [Fintype ι] (x : ι → ℝ) (n : ℝ) (hn : n ≠ 0) (hcard : (Fintype.card ι : ℝ) = n) :
    ∑ k, (x k - (∑ j, x j) / n) * (x k - (∑ j, x j) / n) = (∑ k, x k * x k) - (∑ k, x k) * (∑ k, x k) / n := by
  have h1 : ∀ k, (x k - (∑ j, x j) / n) * (x k - (∑ j, x j) / n)
      = x k * x k - 2 * ((∑ j, x j) / n) * x k + ((∑ j, x j) / n) * ((∑ j, x j) / n) := fun k => by ring
  simp only [h1, Finset.sum_add_distrib, Finset.sum_sub_distrib, ← Finset.mul_sum, Finset.sum_const, Finset.card_univ,
    nsmul_eq_mul, hcard]
  field_simp
  ring

end Cert.Moments
-- ==== Proof.Bridge.lean ====
/-
  The two arrangements of the variance agree on finite entries.  With every entry a real, all the sums, products and
  quotients by 4096 and 4095 stay real, so both variances are coercions of real expressions.  Over the reals the sum of
  squared deviations from the mean is the sum of squares minus the squared sum over 4096 (MomentLaw.lean); it is a sum
  of squares, hence nonnegative, and stays so after division by 4095, so the maximum with zero is the quotient itself.
-/
import proofs.«125075_j13494787244486_2_alg».proof.Proof.Spec
import proofs.«125075_j13494787244486_2_alg».proof.Proof.MomentLaw
import Idealize.ShloMosaic.PureOps.Ideal.Laws

noncomputable section

namespace Cert.Moments

open Idealize.ShloMosaic Idealize.ShloMosaic.ValueIdx

/-- The pattern 0x45800000 is 2^12 = 4096. -/
theorem c4096_eq : c4096 = ((4096 : ℝ) : EReal) := by
  simp [c4096, Ideal.ofBits, Ideal.ieee, -EReal.coe_mul]; norm_num

/-- The pattern 0x457FF000 is 4095. -/
theorem c4095_eq : c4095 = ((4095 : ℝ) : EReal) := by
  simp [c4095, Ideal.ofBits, Ideal.ieee, -EReal.coe_mul]; norm_num

/-- The all-zero pattern is 0. -/
theorem c0_eq : c0 = 0 := Ideal.ofBits_zero_f32

/-- The coercion of a finite real sum is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A double sum of coerced reals over the 64 x 64 block is the coercion of the single sum over pairs. -/
theorem coe_sum_block (f : Fin 64 → Fin 64 → ℝ) :
    (∑ h : Fin 64, ∑ w : Fin 64, ((f h w : ℝ) : EReal)) = ((∑ p : Fin 64 × Fin 64, f p.1 p.2 : ℝ) : EReal) := by
  rw [Fintype.sum_prod_type' f, coe_sum]
  refine Finset.sum_congr rfl fun h _ => ?_
  rw [coe_sum]

/-- Division of a real by a nonzero real, on the extended reals, is the real quotient. -/
theorem div_coe_coe (a y : ℝ) (h : y ≠ 0) : Ideal.div (a : EReal) (y : EReal) = ((a / y : ℝ) : EReal) := by
  rw [Ideal.div_coe h, ← EReal.coe_mul, mul_one_div]

theorem varK_eq_varR (x : SX.Idx → EReal) (hfin : ∀ i, ∃ r : ℝ, x i = (r : EReal)) (b : Fin 32) (c : Fin 512) :
    varK x b c = varR x b c := by
  choose r hr using hfin
  obtain rfl : x = fun i => (r i : EReal) := funext hr
  -- the block's entries as a real family over pairs, its sum s and its sum of squares
  have hcard : (Fintype.card (Fin 64 × Fin 64) : ℝ) = 4096 := by
    rw [Fintype.card_prod, Fintype.card_fin]; norm_num
  have hlaw := sum_sq_dev (fun p : Fin 64 × Fin 64 => r (ix4 b c p.1 p.2)) 4096 (by norm_num) hcard
  have hT : total (fun i => (r i : EReal)) b c = ((∑ p : Fin 64 × Fin 64, r (ix4 b c p.1 p.2) : ℝ) : EReal) :=
    coe_sum_block fun h w => r (ix4 b c h w)
  have hS : totalSq (fun i => (r i : EReal)) b c
      = ((∑ p : Fin 64 × Fin 64, r (ix4 b c p.1 p.2) * r (ix4 b c p.1 p.2) : ℝ) : EReal) := by
    rw [← coe_sum_block fun h w => r (ix4 b c h w) * r (ix4 b c h w)]
    simp only [totalSq, EReal.coe_mul]
  have hM : mean (fun i => (r i : EReal)) b c
      = (((∑ p : Fin 64 × Fin 64, r (ix4 b c p.1 p.2)) / 4096 : ℝ) : EReal) := by
    rw [mean, hT, c4096_eq, div_coe_coe _ _ (by norm_num)]
  have hD : devSq (fun i => (r i : EReal)) b c
      = ((∑ p : Fin 64 × Fin 64, (r (ix4 b c p.1 p.2) - (∑ q : Fin 64 × Fin 64, r (ix4 b c q.1 q.2)) / 4096)
          * (r (ix4 b c p.1 p.2) - (∑ q : Fin 64 × Fin 64, r (ix4 b c q.1 q.2)) / 4096) : ℝ) : EReal) := by
    rw [← coe_sum_block fun h w => (r (ix4 b c h w) - (∑ q : Fin 64 × Fin 64, r (ix4 b c q.1 q.2)) / 4096)
          * (r (ix4 b c h w) - (∑ q : Fin 64 × Fin 64, r (ix4 b c q.1 q.2)) / 4096)]
    simp only [devSq, hM, EReal.coe_mul, EReal.coe_sub]
  have hone : (((1#32 : BitVec 32).toInt : ℝ) : EReal) = ((1 : ℝ) : EReal) := by
    have : (1#32 : BitVec 32).toInt = 1 := by decide
    rw [this]; norm_num
  -- the second arrangement, as a real
  have hR : varR (fun i => (r i : EReal)) b c
      = ((((∑ p : Fin 64 × Fin 64, r (ix4 b c p.1 p.2) * r (ix4 b c p.1 p.2))
          - (∑ p : Fin 64 × Fin 64, r (ix4 b c p.1 p.2)) * (∑ p : Fin 64 × Fin 64, r (ix4 b c p.1 p.2)) / 4096) / 4095 : ℝ)
          : EReal) := by
    rw [varR, hD, c4096_eq, hone, ← EReal.coe_sub, div_coe_coe _ _ (by norm_num), hlaw]
    norm_num
  -- the first arrangement, as the maximum of the same real with zero
  have hK : varK (fun i => (r i : EReal)) b c
      = max ((((∑ p : Fin 64 × Fin 64, r (ix4 b c p.1 p.2) * r (ix4 b c p.1 p.2))
          - (∑ p : Fin 64 × Fin 64, r (ix4 b c p.1 p.2)) * (∑ p : Fin 64 × Fin 64, r (ix4 b c p.1 p.2)) / 4096) / 4095 : ℝ)
          : EReal) 0 := by
    rw [varK, hT, hS, c4096_eq, c4095_eq, c0_eq, ← EReal.coe_mul, div_coe_coe _ _ (by norm_num), ← EReal.coe_sub,
      div_coe_coe _ _ (by norm_num)]
  rw [hK, hR]
  refine max_eq_left ?_
  rw [← hlaw]
  have hnn : (0 : ℝ) ≤ (∑ k : Fin 64 × Fin 64, (r (ix4 b c k.1 k.2) - (∑ j : Fin 64 × Fin 64, r (ix4 b c j.1 j.2)) / 4096)
      * (r (ix4 b c k.1 k.2) - (∑ j : Fin 64 × Fin 64, r (ix4 b c j.1 j.2)) / 4096)) / 4095 :=
    div_nonneg (Finset.sum_nonneg fun k _ => mul_self_nonneg _) (by norm_num)
  exact_mod_cast hnn

theorem stdKArr_eq_stdRArr (x : SX.Idx → EReal) (hfin : ∀ i, ∃ r : ℝ, x i = (r : EReal)) : stdKArr x = stdRArr x := by
  funext j
  exact congrArg Ideal.sqrt (varK_eq_varR x hfin (j 0) (j 1))

end Cert.Moments

end
-- ==== Proof.Finite.lean ====
/-
  Every entry of the input array is a real.  The precondition says that the conjunction, over all entries x, of
  |x| < +infinity is true.  A conjunction that is true is true at each entry; and on the extended reals
  |x| = max x (-x) is below +infinity only when x is neither infinity, that is, when x is a real.
-/
import proofs.«125075_j13494787244486_2_alg».proof.Defs
import proofs.«125075_j13494787244486_2_alg».proof.Proof.Gen.Pre_finite_inputs
import proofs.«125075_j13494787244486_2_alg».proof.Proof.Gen.KernelIdeal
import proofs.«125075_j13494787244486_2_alg».proof.Proof.Spec
import Idealize.ShloMosaic.Lib.ReduceAll
import Idealize.ShloMosaic.Lib.ValueIdx

noncomputable section

namespace Cert.Moments

open Idealize.ShloMosaic Idealize.ShloMosaic.ValueIdx Idealize.SL.Sem

/-- The pattern 0x7F800000 is +infinity. -/
theorem cInf_eq : Ideal.ofBits .f32 0x7F800000#32 = (⊤ : EReal) := by rfl

/-- An extended real whose absolute value max a (-a) compares below +infinity is a real. -/
theorem real_of_abs_lt_inf (a : EReal)
    (h : Ideal.cmp .olt (max a (-a)) (Ideal.ofBits .f32 0x7F800000#32) = 1#1) : ∃ r : ℝ, a = (r : EReal) := by
  rw [cInf_eq] at h
  induction a using EReal.rec with
  | bot => simp [Ideal.cmp] at h
  | coe r => exact ⟨r, rfl⟩
  | top => simp [Ideal.cmp] at h

instance : Subsingleton Cert.Pre_finite_inputs.S_.Idx := ⟨fun a b => funext fun d => d.elim0⟩

theorem finite_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) (i : SX.Idx) :
    ∃ r : ℝ, m ((c.tc : Thread Cert.KernelIdeal.nD Cert.KernelIdeal.τ).loc Cert.KernelIdeal.main_arg0) i = (r : EReal) := by
  have h0 := congrFun (h c) ValueIdx.ix0
  dsimp only [Cert.Pre_finite_inputs.fn] at h0
  have h1 := Host.reduce_andi_all _ _ _ _ _ h0 i
  exact real_of_abs_lt_inf _ h1

end Cert.Moments

end
-- ==== Proof.lean ====
/-
  The certificate of the per-(batch, channel) mean and standard deviation kernel against its reference.

  Both programs map an input x of shape [32, 512, 64, 64] to an array [32, 1024]: for every (b, c) the mean of the
  4096 entries x[b, c, ., .], followed by their unbiased standard deviation.  The kernel walks the 64 rows of each
  (b, c) in four slabs of 16, accumulating the sum s and the sum of squares ss, and at the last slab writes  s / 4096
  and  sqrt (max ((ss - s * s / 4096) / 4095, 0)).  The reference computes  s / 4096  and
  sqrt ((sum of (x - s / 4096)^2) / (4096 - 1)).  Over the extended reals the means are the same term; the variances
  agree on finite inputs, where the sum of squared deviations expands to  ss - s * s / 4096  and is nonnegative, so
  that the maximum with zero is the identity.  This is where the precondition (every input finite) is used.

  The three frames: the two kernel programs' are the generated frame proofs; the reference's is its run with the result
  dropped.  The ideal pass rewrote nothing, so the kernel's idealization is the program's own text.
-/
import proofs.«125075_j13494787244486_2_alg».proof.Defs
import proofs.«125075_j13494787244486_2_alg».proof.Proof.Gen.Kernel
import proofs.«125075_j13494787244486_2_alg».proof.Proof.Gen.Kernel.Frame
import proofs.«125075_j13494787244486_2_alg».proof.Proof.Gen.KernelIdeal
import proofs.«125075_j13494787244486_2_alg».proof.Proof.Gen.KernelIdeal.Frame
import proofs.«125075_j13494787244486_2_alg».proof.Proof.Gen.ReferenceIdeal
import proofs.«125075_j13494787244486_2_alg».proof.Proof.Gen.Pre_finite_inputs
import proofs.«125075_j13494787244486_2_alg».proof.Proof.KFinal
import proofs.«125075_j13494787244486_2_alg».proof.Proof.KTail
import proofs.«125075_j13494787244486_2_alg».proof.Proof.RefRead
import proofs.«125075_j13494787244486_2_alg».proof.Proof.Bridge
import proofs.«125075_j13494787244486_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- The kernel's run, read: its result lists the means, then the standard deviations (variance from the two moments). -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v1)
          = concatenate Cert.KernelIdeal.S32x1024 1
              [⟨Cert.KernelIdeal.S32x512, Cert.Moments.meanArr (m ((c.tc : Thread Cert.KernelIdeal.nD Cert.KernelIdeal.τ).loc Cert.KernelIdeal.main_arg0))⟩,
               ⟨Cert.KernelIdeal.S32x512, Cert.Moments.stdKArr (m ((c.tc : Thread Cert.KernelIdeal.nD Cert.KernelIdeal.τ).loc Cert.KernelIdeal.main_arg0))⟩]
              Cert.KernelIdeal.Facts₀.concatenates_S32x512_S32x512_S32x1024_d1
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0) :=
  (θ_run Cert.KernelIdeal.defs _ _).mono
    (fun _ h c => ⟨by rw [(h c).1, Cert.KernelIdeal.KValue.final1 m c, Cert.KernelIdeal.KValue.final2 m c], (h c).2⟩)
    (Cert.KernelIdeal.KValue.run_tail m ρ)

/-- On finite inputs the two programs end with equal results: the same means, and standard deviations whose
    variances are two arrangements of one real number. -/
theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.RefValue.run m' ρ')
  rw [hagree c, Cert.Moments.stdKArr_eq_stdRArr _ (fun i => Cert.Moments.finite_of_pre m hpre c i)]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
